-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S16x2048x2048 : Shape := ⟨3, ![16, 2048, 2048]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel

variable [Facts]

def fn {F : FTy → Type} [FloatOps F] (main_arg0 : FVec F S16x2048x64 .f32) (main_arg1 : FVec F S16x2048x64 .f32) (main_arg2 : FVec F S16x2048x64 .f32) (main_arg3 : IVec S16x2048x2048 1) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  main_v13
-- ==== Kernel.lean ====
abbrev S16x2048x64 : Shape := ⟨3, ![16, 2048, 64]⟩
abbrev S16x2048x2048 : Shape := ⟨3, ![16, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .i1⟩
  | .hbm, ⟨4, _⟩ => ⟨S16x2048x2048, .i32⟩
  | .hbm, ⟨5, _⟩ => ⟨S16x2048x64, .f32⟩
  | .hbm, ⟨6, _⟩ => ⟨S16x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x2048, .i32⟩
  | .local _ .vmem, ⟨7, _⟩ => ⟨S1x512x2048, .i32⟩
  | .local _ .vmem, ⟨8, _⟩ => ⟨S1x512x64, .f32⟩
  | .local _ .vmem, ⟨9, _⟩ => ⟨S1x512x64, .f32⟩
  | .local _ .vmem, ⟨10, _⟩ => ⟨S1x512x2048, .f32⟩
  | .local _ .vmem, ⟨11, _⟩ => ⟨S1x512x2048, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  natLt_1_32 : 1 < 32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x512x2048 : S512x2048.ShapeCasts S1x512x2048
  shapeCasts_S512x64_S1x512x64 : S512x64.ShapeCasts S1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S16x2048x64.size a
  hwx0_0 : ∀ i : grid0.Coords, EltTy.bits .f32 = 32 ∨ (Rect.block (s := S16x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S16x2048x2048.size a
  hwx0_3 : ∀ i : grid0.Coords, EltTy.bits .i32 = 32 ∨ (Rect.block (s := S16x2048x2048) S1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S16x2048x64.size a
  hwx0_4 : ∀ i : grid0.Coords, EltTy.bits .f32 = 32 ∨ (Rect.block (s := S16x2048x64) S1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S16x2048x2048.size a
  hwx0_5 : ∀ i : grid0.Coords, EltTy.bits .f32 = 32 ∨ (Rect.block (s := S16x2048x2048) S1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .i1⟩
  | .hbm, ⟨4, _⟩ => ⟨S16x2048x2048, .f32⟩
  | .hbm, ⟨5, _⟩ => ⟨S_, .f32⟩
  | .hbm, ⟨6, _⟩ => ⟨S16x2048x2048, .f32⟩
  | .hbm, ⟨7, _⟩ => ⟨S16x2048x2048, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x2048, .f32⟩
  | .hbm, ⟨16, _⟩ => ⟨S16x2048x2048, .f32⟩
  | .hbm, ⟨17, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call1_v0 : Ref sig .tc := ⟨.hbm, 12, rfl⟩
abbrev main_call1_v1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S16x2048x1_S16x2048x2048_0_1_2 : S16x2048x1.BroadcastsInDim S16x2048x2048 (![0, 1, 2] : Fin 3 → Fin S16x2048x2048.rank)
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.SumNorm.lean ====
/-
  Sum-normalised dot-product attention on the extended reals, index by index.

  From queries `q`, keys `k`, values `v` of shape [16, 2048, 64] and a Boolean mask of shape [16, 2048, 2048]
  (a set bit REMOVES the pair):
    score  b i j = ∑ d, q(b, i, d) · k(b, j, d)
    kept   b i j = 0 where the mask's bit (b, i, j) is set, score b i j elsewhere
    total  b i   = ∑ j, kept b i j
    weights (b, i, j) = kept b i j / max (total b i) floor
    mixed   (b, i, d) = ∑ j, weights (b, i, j) · v(b, j, d)
  `floor` is the single-precision word nearest to 1e-14 read exactly; the zero is the zero word.  Division is the
  extended reals' total division.  Nothing here needs the entries to be finite: the two programs compared against this
  specification compute these very expressions, and only the order of a sum and of a maximum's arguments differs.
-/
import Idealize.ShloMosaic.PureOps.Ideal
import Idealize.ShloMosaic.PureOps.Ideal.Laws
import Idealize.ShloMosaic.Lib.ValueIdx

noncomputable section

namespace Cert.SumNorm

open Idealize.ShloMosaic Idealize.ShloMosaic.ValueIdx
open scoped BigOperators

/-- Queries, keys, values and the mixed result: [batch, position, feature]. -/
abbrev Rows : Shape := ⟨3, ![16, 2048, 64]⟩
/-- The mask and the weights: [batch, query position, key position]. -/
abbrev Pairs : Shape := ⟨3, ![16, 2048, 2048]⟩

/-- The zero word of single precision, read on the extended reals. -/
abbrev zeroWord : EReal := Ideal.ofBits .f32 0x00000000#32
/-- The clamp floor: the single-precision word nearest to 1e-14, read exactly. -/
abbrev floorWord : EReal := Ideal.ofBits .f32 0x283424DC#32

/-- Query `i` against key `j` of batch `b`. -/
def score (q k : Rows.Idx → EReal) (b : Fin 16) (i j : Fin 2048) : EReal :=
  ∑ d : Fin 64, q (ix3 b i d) * k (ix3 b j d)

/-- The score where the mask keeps the pair, the zero word where it removes it. -/
def kept (q k : Rows.Idx → EReal) (mk : Pairs.Idx → BitVec 1) (b : Fin 16) (i j : Fin 2048) : EReal :=
  Scalar.select (mk (ix3 b i j)) zeroWord (score q k b i j)

/-- The sum of a query's kept scores over all keys. -/
def total (q k : Rows.Idx → EReal) (mk : Pairs.Idx → BitVec 1) (b : Fin 16) (i : Fin 2048) : EReal :=
  ∑ j : Fin 2048, kept q k mk b i j

/-- A kept score over its query's total, the total clamped from below at the floor. -/
def weightAt (q k : Rows.Idx → EReal) (mk : Pairs.Idx → BitVec 1) (b : Fin 16) (i j : Fin 2048) : EReal :=
  Ideal.div (kept q k mk b i j) (max (total q k mk b i) floorWord)

/-- The weights as one array. -/
def weights (q k : Rows.Idx → EReal) (mk : Pairs.Idx → BitVec 1) : Pairs.Idx → EReal :=
  fun x => weightAt q k mk (x 0) (x 1) (x 2)

/-- The values mixed by a query's weights. -/
def mixedAt (q k v : Rows.Idx → EReal) (mk : Pairs.Idx → BitVec 1) (b : Fin 16) (i : Fin 2048) (d : Fin 64) : EReal :=
  ∑ j : Fin 2048, weightAt q k mk b i j * v (ix3 b j d)

/-- The mixed values as one array. -/
def mixed (q k v : Rows.Idx → EReal) (mk : Pairs.Idx → BitVec 1) : Rows.Idx → EReal :=
  fun x => mixedAt q k v mk (x 0) (x 1) (x 2)

theorem weights_ix3 (q k : Rows.Idx → EReal) (mk : Pairs.Idx → BitVec 1) (b : Fin 16) (i j : Fin 2048) :
    weights q k mk (ix3 b i j) = weightAt q k mk b i j := rfl

theorem mixed_ix3 (q k v : Rows.Idx → EReal) (mk : Pairs.Idx → BitVec 1) (b : Fin 16) (i : Fin 2048) (d : Fin 64) :
    mixed q k v mk (ix3 b i d) = mixedAt q k v mk b i d := rfl

/-- A one-bit word widened to 32 bits differs from zero exactly when the bit is set: comparing the widened word with
    zero gives the bit back. -/
theorem widened_ne_zero (a : BitVec 1) : IntOp.cmpi .ne (a.setWidth 32) 0#32 = a := by
  rcases BitVec.eq_zero_or_eq_one a with h | h <;> subst h <;> decide

end Cert.SumNorm

end
-- ==== Proof.LibDenseNT.lean ====
/-
  A matrix product against a transposed right operand, on the extended reals, index by index.

  `[M, K] × [N, K] → [M, N]`, both operands contracted along their second axis (the `q · kᵀ` of attention scores, written
  without materialising the transpose): entry `(p, q)` is `∑ k, x(p, k) · w(q, k)`.  Stated for the matrix unit's product into
  a zero accumulator, at any contraction precision, and for the host's general dot product.  No finiteness is needed: only
  the definitions of the operations and a re-indexing of the sum.
-/
import Idealize.ShloMosaic.PureOps.Ideal
import Idealize.ShloMosaic.PureOps.Ideal.Laws
import Idealize.ShloMosaic.Lib.ValueIdx

noncomputable section

namespace Cert.Lib.DenseNT

open Idealize.ShloMosaic Idealize.ShloMosaic.ValueIdx
open scoped BigOperators

/-- Row `p` of `x` against row `q` of `w`. -/
def rowRowDot {M K N : ℕ} (x : (⟨2, ![M, K]⟩ : Shape).Idx → EReal) (w : (⟨2, ![N, K]⟩ : Shape).Idx → EReal)
    (p : Fin M) (q : Fin N) : EReal :=
  ∑ k : Fin K, x (ix2 p k) * w (ix2 q k)

variable {M K N : ℕ} (D : DotDims ⟨2, ![M, K]⟩ ⟨2, ![N, K]⟩ ⟨2, ![M, N]⟩)
  (hlc : D.lhsContracting = [1]) (hrc : D.rhsContracting = [1])
  (hln : D.lhsNonContracting = [0]) (hrn : D.rhsNonContracting = [0])
  (hlb : D.lhsBatch = []) (hrb : D.rhsBatch = [])

include hlc in
theorem nt_rank : D.contr.rank = 1 := by rw [D.rank_contr, hlc]; rfl

include hlc in
theorem nt_size : D.contr.size ⟨0, by rw [nt_rank D hlc]; exact Nat.one_pos⟩ = K := by
  have := D.size_contr 0 (by rw [hlc]; exact Nat.one_pos)
  rw [this]
  simp [hlc]

include hln hlb in
/-- The left operand's free coordinate is the result's row. -/
theorem nt_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate, its first, is the result's column. -/
theorem nt_rhs0 (j : (⟨2, ![M, N]⟩ : Shape).Idx) (k : D.contr.Idx) : (D.rhsIdx j k 0).val = (j 1).val := by
  have hb : (0 : Fin 2) ∉ D.rhsBatch := by rw [hrb]; simp
  have hn : (0 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction at entry `(p, q)` is row `p` of `x` against row `q` of `w`. -/
theorem nt_sum (f : (⟨2, ![M, K]⟩ : Shape).Idx → EReal) (g : (⟨2, ![N, K]⟩ : Shape).Idx → EReal) (p : Fin M) (q : Fin N) :
    ∑ k : D.contr.Idx, f (D.lhsIdx (ix2 p q) k) * g (D.rhsIdx (ix2 p q) k) = rowRowDot f g p q := by
  unfold rowRowDot
  rw [← Equiv.sum_comp (contrEquiv1 D K (nt_rank D hlc) (nt_size D hlc)).symm]
  refine Finset.sum_congr rfl fun k _ => ?_
  have hk := contrEquiv1_symm_val D K (nt_rank D hlc) (nt_size D hlc) k
  have el : D.lhsIdx (ix2 p q) ((contrEquiv1 D K (nt_rank D hlc) (nt_size D hlc)).symm k) = ix2 p k := by
    funext a; apply Fin.ext
    match a with
    | ⟨0, _⟩ => exact nt_lhs0 D hln hlb (ix2 p q) _
    | ⟨1, _⟩ => exact (D.lhsIdx_val_of_single hlc (ix2 p q) _).trans hk
  have er : D.rhsIdx (ix2 p q) ((contrEquiv1 D K (nt_rank D hlc) (nt_size D hlc)).symm k) = ix2 q k := by
    funext a; apply Fin.ext
    match a with
    | ⟨0, _⟩ => exact nt_rhs0 D hln hrn hlb hrb (ix2 p q) _
    | ⟨1, _⟩ => exact (D.rhsIdx_val_of_single hrc (ix2 p q) _).trans hk
  rw [el, er]

include hlc hrc hln hrn hlb hrb in
/-- The matrix unit's product into a zero accumulator, at entry `(p, q)`, whatever the contraction precision. -/
theorem matmul_zero_at {φ₁ φ₂ : FTy} (prec : Option ContractPrecision) (x : FVec Ideal ⟨2, ![M, K]⟩ φ₁) (w : FVec Ideal ⟨2, ![N, K]⟩ φ₂)
    (p : Fin M) (q : Fin N) :
    matmul D prec x w (constant ⟨2, ![M, N]⟩ .f32 0x00000000#32) (ix2 p q) = rowRowDot x w p q :=
  (Ideal.matmul_constant_zero_apply D prec x w (ix2 p q)).trans (nt_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![N, K]⟩ φ₂) (p : Fin M) (q : Fin N) :
    Host.dotGeneral D none x w (ix2 p q) = rowRowDot x w p q :=
  (Ideal.dotGeneral_apply D none .single x w (ix2 p q)).trans (nt_sum D hlc hrc hln hrn hlb hrb x w p q)

end Cert.Lib.DenseNT

end
-- ==== Proof.LibDense.lean ====
/-
  Dense layers on the extended reals, index by index.

  A matrix product with one contracted axis, however the contraction's index type is presented, is at entry (p, q)
  the sum over k of x(p, k) · w(k, q).  This file fixes that reading for the plain two-dimensional product
  [M, K] × [K, N] → [M, N] (left axis 1 against right axis 0), both for the matrix unit's product into a zero
  accumulator and for the host's general dot product, and adds the bias row and the activation:
    dense x w b (p, q)     = (∑ k, x(p, k) · w(k, q)) + b(q)
  No finiteness is needed anywhere: only the definitions of the operations and a re-indexing of the sum.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.Lib.Dense

open Idealize.ShloMosaic Idealize.ShloMosaic.ValueIdx
open scoped BigOperators

/-- Row `p` of `x` against column `q` of `w`. -/
def rowDot {M K N : ℕ} (x : (⟨2, ![M, K]⟩ : Shape).Idx → EReal) (w : (⟨2, ![K, N]⟩ : Shape).Idx → EReal)
    (p : Fin M) (q : Fin N) : EReal :=
  ∑ k : Fin K, x (ix2 p k) * w (ix2 k q)

/-- A contraction over one axis is the sum over that axis's coordinate. -/
theorem contr_sum {sl sr so : Shape} (D : DotDims sl sr so) (K : ℕ) (hr : D.contr.rank = 1)
    (hs : D.contr.size ⟨0, by omega⟩ = K) (f : sl.Idx → EReal) (g : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, f (D.lhsIdx j k) * g (D.rhsIdx j k) = ∑ k : Fin K, f (L k) * g (R k) := by
  rw [← Equiv.sum_comp (contrEquiv1 D K hr hs).symm]
  exact Finset.sum_congr rfl fun k _ => by rw [hL k, hR k]

section Plain

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc in
theorem plain_rank : D.contr.rank = 1 := by rw [D.rank_contr, hlc]; rfl

include hlc in
theorem plain_size : D.contr.size ⟨0, by rw [plain_rank D hlc]; exact Nat.one_pos⟩ = K := by
  have := D.size_contr 0 (by rw [hlc]; exact Nat.one_pos)
  rw [this]
  simp [hlc]

include hln hlb in
/-- The left operand's free coordinate is the result's row. -/
theorem plain_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate is the result's column. -/
theorem plain_rhs1 (j : (⟨2, ![M, N]⟩ : Shape).Idx) (k : D.contr.Idx) : (D.rhsIdx j k 1).val = (j 1).val := by
  have hb : (1 : Fin 2) ∉ D.rhsBatch := by rw [hrb]; simp
  have hn : (1 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction of a plain product at entry `(p, q)` is the row of `x` against the column of `w`. -/
theorem plain_sum (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = rowDot f g p q := by
  refine contr_sum D K (plain_rank D hlc) (plain_size D hlc) f g (ix2 p q) (fun k => ix2 p k) (fun k => ix2 k q) (fun k => ?_) (fun k => ?_)
  · funext a; apply Fin.ext
    match a with
    | ⟨0, _⟩ => exact plain_lhs0 D hln hlb (ix2 p q) _
    | ⟨1, _⟩ => exact (D.lhsIdx_val_of_single hlc (ix2 p q) _).trans (contrEquiv1_symm_val D K (plain_rank D hlc) (plain_size D hlc) k)
  · funext a; apply Fin.ext
    match a with
    | ⟨0, _⟩ => exact (D.rhsIdx_val_of_single hrc (ix2 p q) _).trans (contrEquiv1_symm_val D K (plain_rank D hlc) (plain_size D hlc) k)
    | ⟨1, _⟩ => exact plain_rhs1 D hln hrn hlb hrb (ix2 p q) _

include hlc hrc hln hrn hlb hrb in
/-- The matrix unit's product into a zero accumulator, at entry `(p, q)`. -/
theorem matmul_zero_at {φ₁ φ₂ : FTy} (x : FVec Ideal ⟨2, ![M, K]⟩ φ₁) (w : FVec Ideal ⟨2, ![K, N]⟩ φ₂) (p : Fin M) (q : Fin N) :
    matmul D none x w (constant ⟨2, ![M, N]⟩ .f32 0x00000000#32) (ix2 p q) = rowDot x w p q :=
  (Ideal.matmul_constant_zero_apply D none x w (ix2 p q)).trans (plain_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![K, N]⟩ φ₂) (p : Fin M) (q : Fin N) :
    Host.dotGeneral D none x w (ix2 p q) = rowDot x w p q :=
  (Ideal.dotGeneral_apply D none .single x w (ix2 p q)).trans (plain_sum D hlc hrc hln hrn hlb hrb x w p q)

end Plain

/-- A dense layer as one function of whole arrays: entry `(p, q)` is `act` of row `p` of `x` against column `q` of
    `w` plus the bias row's entry `q`. -/
def dense {M K N : ℕ} (act : EReal → EReal) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => act (rowDot x w (i 0) (i 1) + b (ix2 (0 : Fin 1) (i 1)))

theorem dense_ix2 {M K N : ℕ} (act : EReal → EReal) (x : (⟨2, ![M, K]⟩ : Shape).Idx → EReal) (w : (⟨2, ![K, N]⟩ : Shape).Idx → EReal)
    (b : (⟨2, ![1, N]⟩ : Shape).Idx → EReal) (p : Fin M) (q : Fin N) :
    dense act x w b (ix2 p q) = act (rowDot x w p q + b (ix2 (0 : Fin 1) q)) := rfl

/-- The combine step as one function of whole arrays: entry `(p, q)` is
    `tanh((a(p, q) + h(p, q) · d(p, 0)) + b(0, q))`. -/
def combine {M N : ℕ} (a h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => Ideal.tanh ((a i + h i * d (ix2 (i 0) (0 : Fin 1))) + b (ix2 (0 : Fin 1) (i 1)))

theorem combine_ix2 {M N : ℕ} (a h : (⟨2, ![M, N]⟩ : Shape).Idx → EReal) (d : (⟨2, ![M, 1]⟩ : Shape).Idx → EReal)
    (b : (⟨2, ![1, N]⟩ : Shape).Idx → EReal) (p : Fin M) (q : Fin N) :
    combine a h d b (ix2 p q)
      = Ideal.tanh ((a (ix2 p q) + h (ix2 p q) * d (ix2 p (0 : Fin 1))) + b (ix2 (0 : Fin 1) q)) := rfl

end Cert.Lib.Dense

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.ScoreTile.lean ====
/-
  One grid point of the kernel, read at an index.

  The body works on one batch `b` and one tile of 512 queries: `Q` is the tile's queries [1, 512, 64], `K` and `W` all of
  the batch's keys and values [1, 2048, 64], `M` the tile's mask rows widened to 32-bit words [1, 512, 2048].  What it
  stores is, entry by entry, the specification's expressions over these blocks:
    tileKept   r j = 0 where M(0, r, j) ≠ 0, ∑ d, Q(0, r, d) · K(0, j, d) elsewhere
    tileWeight r j = tileKept r j / max (∑ j', tileKept r j') floor
    tileMixed  r d = ∑ j, tileWeight r j · W(0, j, d)
  The roundings to half precision on the way into the second product are the identity on the extended reals.
-/
import proofs.«153842_j24172075941944_2_alg».proof.Proof.Gen.KernelIdeal.Skeleton
import proofs.«153842_j24172075941944_2_alg».proof.Proof.SumNorm
import proofs.«153842_j24172075941944_2_alg».proof.Proof.LibDenseNT
import proofs.«153842_j24172075941944_2_alg».proof.Proof.LibDense
import proofs.«153842_j24172075941944_2_alg».proof.Proof.LibKeepdims
import Idealize.ShloMosaic.Lib.ValueLayout
import Idealize.ShloMosaic.Lib.Pipeline.Value

noncomputable section

namespace Cert.SumNorm.Tile

open Cert.KernelIdeal Cert.KernelIdeal.Gen Idealize.ShloMosaic Idealize.ShloMosaic.ValueIdx Cert.SumNorm
open scoped BigOperators

/-- A tile's kept score: query row `r` against key `j`, the zero word where the widened mask word is not zero. -/
def tileKept (Q : FVec Ideal S1x512x64 .f32) (K : FVec Ideal S1x2048x64 .f32) (M : IVec S1x512x2048 32)
    (r : Fin 512) (j : Fin 2048) : EReal :=
  Scalar.select (IntOp.cmpi .ne (M (ix3 (0 : Fin 1) r j)) 0#32) zeroWord
    (∑ d : Fin 64, Q (ix3 (0 : Fin 1) r d) * K (ix3 (0 : Fin 1) j d))

/-- A tile's weight: the kept score over the row's clamped total. -/
def tileWeight (Q : FVec Ideal S1x512x64 .f32) (K : FVec Ideal S1x2048x64 .f32) (M : IVec S1x512x2048 32)
    (r : Fin 512) (j : Fin 2048) : EReal :=
  Ideal.div (tileKept Q K M r j) (max (∑ j' : Fin 2048, tileKept Q K M r j') floorWord)

/-- A tile's mixed values. -/
def tileMixed (Q : FVec Ideal S1x512x64 .f32) (K W : FVec Ideal S1x2048x64 .f32) (M : IVec S1x512x2048 32)
    (r : Fin 512) (d : Fin 64) : EReal :=
  ∑ j : Fin 2048, tileWeight Q K M r j * W (ix3 (0 : Fin 1) j d)

/-- The masked scores of the tile as the body forms them: the product of the queries with the transposed keys into
    zero, replaced by the zero word where the mask word is not zero. -/
def maskedScores (Q : FVec Ideal S1x512x64 .f32) (K : FVec Ideal S1x2048x64 .f32) (M : IVec S1x512x2048 32) :
    FVec Ideal S512x2048 .f32 :=
  select (cmpi .ne (shapeCast S512x2048 M shapeCasts_S1x512x2048_S512x2048) (constantI S512x2048 32 0#32))
    (broadcast S512x2048 (Scalar.ofBits (F := Ideal) .f32 0x00000000#32))
    (matmul dot_S512x64_S2048x64_S512x2048_1_1_0_0_n_n (some .fp32)
      (shapeCast S512x64 Q shapeCasts_S1x512x64_S512x64) (shapeCast S2048x64 K shapeCasts_S1x2048x64_S2048x64)
      (constant (F := Ideal) S512x2048 .f32 0x00000000#32))

/-- The masked scores at row `r`, key `j`. -/
theorem maskedScores_at (Q : FVec Ideal S1x512x64 .f32) (K : FVec Ideal S1x2048x64 .f32) (M : IVec S1x512x2048 32)
    (r : Fin 512) (j : Fin 2048) : maskedScores Q K M (ix2 r j) = tileKept Q K M r j := by
  unfold maskedScores tileKept
  rw [select_apply]
  have hm : cmpi .ne (shapeCast S512x2048 M shapeCasts_S1x512x2048_S512x2048) (constantI S512x2048 32 0#32) (ix2 r j)
      = IntOp.cmpi .ne (M (ix3 (0 : Fin 1) r j)) 0#32 :=
    congrArg (fun w => IntOp.cmpi .ne w 0#32) (shapeCast_1ab_ab_apply M shapeCasts_S1x512x2048_S512x2048 r j)
  have hs : matmul dot_S512x64_S2048x64_S512x2048_1_1_0_0_n_n (some .fp32)
        (shapeCast S512x64 Q shapeCasts_S1x512x64_S512x64) (shapeCast S2048x64 K shapeCasts_S1x2048x64_S2048x64)
        (constant (F := Ideal) S512x2048 .f32 0x00000000#32) (ix2 r j)
      = ∑ d : Fin 64, Q (ix3 (0 : Fin 1) r d) * K (ix3 (0 : Fin 1) j d) := by
    refine (Cert.Lib.DenseNT.matmul_zero_at dot_S512x64_S2048x64_S512x2048_1_1_0_0_n_n rfl rfl rfl rfl rfl rfl (some .fp32) _ _ r j).trans ?_
    unfold Cert.Lib.DenseNT.rowRowDot
    refine Finset.sum_congr rfl fun d _ => ?_
    rw [shapeCast_1ab_ab_apply Q shapeCasts_S1x512x64_S512x64 r d, shapeCast_1ab_ab_apply K shapeCasts_S1x2048x64_S2048x64 j d]
  rw [hm, hs]
  rfl

/-- The body's normalised tile at row `r`, key `j`. -/
theorem pay1_at (Q : FVec Ideal S1x512x64 .f32) (K : FVec Ideal S1x2048x64 .f32) (M : IVec S1x512x2048 32)
    (r : Fin 512) (j : Fin 2048) : k0_pay1 (F := Ideal) Q K M (ix2 r j) = tileWeight Q K M r j := by
  have hden : broadcastTo S512x2048
        (maximumf (shapeCast S512x1 (multiReduction .add [1] S512 (maskedScores Q K M) 0x00000000#32 reduces_S512x2048_S512 (.inl rfl) rfl) shapeCasts_S512_S512x1)
          (broadcast S512x1 (Scalar.ofBits (F := Ideal) .f32 0x283424DC#32)))
        broadcasts_S512x1_S512x2048 (ix2 r j)
      = max (∑ j' : Fin 2048, tileKept Q K M r j') floorWord := by
    refine (Cert.Lib.Keepdims.broadcastTo_a1_ab_apply _ broadcasts_S512x1_S512x2048 r j).trans ?_
    rw [maximumf_apply]
    refine congrArg₂ max ?_ rfl
    refine (Cert.Lib.Keepdims.shapeCast_a_a1_apply _ shapeCasts_S512_S512x1 r (0 : Fin 1)).trans ?_
    refine (Cert.Lib.Keepdims.rowSum_apply (maskedScores Q K M) 0x00000000#32 reduces_S512x2048_S512 (.inl rfl) rfl r).trans ?_
    exact Finset.sum_congr rfl fun j' _ => maskedScores_at Q K M r j'
  show Ideal.div (maskedScores Q K M (ix2 r j)) _ = _
  unfold tileWeight
  rw [maskedScores_at]
  exact congrArg (Ideal.div _) hden

/-- The body's second product at row `r`, feature `d`: the rounded operands are the operands. -/
theorem pay3_at (Q : FVec Ideal S1x512x64 .f32) (K W : FVec Ideal S1x2048x64 .f32) (M : IVec S1x512x2048 32)
    (u : Fin 1) (r : Fin 512) (d : Fin 64) : k0_pay3 (F := Ideal) Q K W M (ix3 u r d) = tileMixed Q K W M r d := by
  unfold k0_pay3
  refine (shapeCast_ab_1ab_apply _ shapeCasts_S512x64_S1x512x64 u r d).trans ?_
  refine (Cert.Lib.Dense.matmul_zero_at dot_S512x2048_S2048x64_S512x64_1_0_0_1_n_n rfl rfl rfl rfl rfl rfl _ _ r d).trans ?_
  unfold Cert.Lib.Dense.rowDot tileMixed
  refine Finset.sum_congr rfl fun j _ => ?_
  rw [truncf_apply, truncf_apply, pay1_at, shapeCast_1ab_ab_apply W shapeCasts_S1x2048x64_S2048x64 j d]

/-- The stored weights block at (0, r, j). -/
theorem pay2_at (Q : FVec Ideal S1x512x64 .f32) (K : FVec Ideal S1x2048x64 .f32) (M : IVec S1x512x2048 32)
    (u : Fin 1) (r : Fin 512) (j : Fin 2048) : k0_pay2 (F := Ideal) Q K M (ix3 u r j) = tileWeight Q K M r j := by
  unfold k0_pay2
  exact (shapeCast_ab_1ab_apply _ shapeCasts_S512x2048_S1x512x2048 u r j).trans (pay1_at Q K M r j)

end Cert.SumNorm.Tile

end
-- ==== Proof.TileMeaning.lean ====
/-
  A tile of the kernel is a band of the specification.

  Suppose the blocks a grid point works on are restrictions of whole arrays: the query block holds rows `i r` of batch `b`
  of `q`, the key and value blocks all of batch `b` of `k` and `v`, and the mask block the rows `i r` of batch `b` of the
  mask with every bit widened to a 32-bit word.  Then the tile's kept scores, weights and mixed values are the
  specification's at batch `b`, query `i r`: a widened bit differs from zero exactly when the bit is set, and every other
  step is the same expression with the blocks' entries replaced by the arrays'.
-/
import proofs.«153842_j24172075941944_2_alg».proof.Proof.ScoreTile

noncomputable section

namespace Cert.SumNorm.Tile

open Cert.KernelIdeal Idealize.ShloMosaic Idealize.ShloMosaic.ValueIdx Cert.SumNorm
open scoped BigOperators

variable (Q : FVec Ideal S1x512x64 .f32) (K W : FVec Ideal S1x2048x64 .f32) (M : IVec S1x512x2048 32)
  (q k v : Rows.Idx → EReal) (mk : Pairs.Idx → BitVec 1) (b : Fin 16) (i : Fin 512 → Fin 2048)
  (hQ : ∀ (r : Fin 512) (d : Fin 64), Q (ix3 (0 : Fin 1) r d) = q (ix3 b (i r) d))
  (hK : ∀ (j : Fin 2048) (d : Fin 64), K (ix3 (0 : Fin 1) j d) = k (ix3 b j d))
  (hW : ∀ (j : Fin 2048) (d : Fin 64), W (ix3 (0 : Fin 1) j d) = v (ix3 b j d))
  (hM : ∀ (r : Fin 512) (j : Fin 2048), M (ix3 (0 : Fin 1) r j) = (mk (ix3 b (i r) j)).setWidth 32)

include hQ hK hM in
theorem tileKept_eq (r : Fin 512) (j : Fin 2048) : tileKept Q K M r j = kept q k mk b (i r) j := by
  unfold tileKept kept score
  rw [hM r j, widened_ne_zero]
  exact congrArg _ (Finset.sum_congr rfl fun d _ => by rw [hQ r d, hK j d])

include hQ hK hM in
theorem tileWeight_eq (r : Fin 512) (j : Fin 2048) : tileWeight Q K M r j = weightAt q k mk b (i r) j := by
  unfold tileWeight weightAt total
  rw [tileKept_eq Q K M q k mk b i hQ hK hM r j]
  exact congrArg (fun s => Ideal.div _ (max s floorWord))
    (Finset.sum_congr rfl fun j' _ => tileKept_eq Q K M q k mk b i hQ hK hM r j')

include hQ hK hW hM in
theorem tileMixed_eq (r : Fin 512) (d : Fin 64) : tileMixed Q K W M r d = mixedAt q k v mk b (i r) d := by
  unfold tileMixed mixedAt
  exact Finset.sum_congr rfl fun j _ => by rw [tileWeight_eq Q K M q k mk b i hQ hK hM r j, hW j d]

end Cert.SumNorm.Tile

end
-- ==== Proof.TilesToArrays.lean ====
/-
  From tiles to whole arrays.

  The grid has 16 × 4 points; point `t` works on batch `b = batchOf t` and on the 512 queries `rowOf t r` = 512 · (tile of
  `t`) + r.  Its query, mask and both output blocks sit at block index (b, tile, 0); its key and value blocks at (b, 0, 0),
  the whole batch.  The mask array the region finds is the argument mask with every bit widened to a 32-bit word by the
  one host operation before the region.  So every block the body loads is a restriction of an argument array, what the
  point writes back is a band of the specification (TileMeaning), the 64 bands cover each output array, and the arrays
  after the run are the specification's `mixed` and `weights` of the arguments.
-/
import proofs.«153842_j24172075941944_2_alg».proof.Proof.Gen.KernelIdeal.Value
import proofs.«153842_j24172075941944_2_alg».proof.Proof.TileMeaning
import Idealize.ShloMosaic.Lib.StableHlo.Run

noncomputable section

namespace Cert.SumNorm.Arrays

open Cert.KernelIdeal Cert.KernelIdeal.Gen Idealize.ShloMosaic Idealize.ShloMosaic.TcCoe Idealize.SL.Sem
open Idealize.ShloMosaic.ValueIdx Cert.SumNorm Cert.SumNorm.Tile
open Idealize.ShloMosaic.Pipeline (Dat)

variable (m : (ℓ : Loc nD τ sig) → Buf (Elt Ideal) ℓ) (ρ : Dev nD → PrngReg)

theorem zeroOffsets : (![0, 0, 0] : Fin 3 → Nat) = fun _ => 0 := funext fun a => by fin_cases a <;> rfl

/-- Where each window's block sits at a point, decided over the 64 points: the batch on the first axis; the query
    tile on the second axis for the queries, the mask and both outputs, and 0 for the keys and values. -/
theorem blockIndices : ∀ t : Fin cfg0.N,
    win0_0.index t (0 : Fin 3) = (grid0.coords t 0).val ∧ win0_0.index t (1 : Fin 3) = (grid0.coords t 1).val ∧ win0_0.index t (2 : Fin 3) = 0
    ∧ win0_1.index t (0 : Fin 3) = (grid0.coords t 0).val ∧ win0_1.index t (1 : Fin 3) = 0 ∧ win0_1.index t (2 : Fin 3) = 0
    ∧ win0_2.index t (0 : Fin 3) = (grid0.coords t 0).val ∧ win0_2.index t (1 : Fin 3) = 0 ∧ win0_2.index t (2 : Fin 3) = 0
    ∧ win0_3.index t (0 : Fin 3) = (grid0.coords t 0).val ∧ win0_3.index t (1 : Fin 3) = (grid0.coords t 1).val ∧ win0_3.index t (2 : Fin 3) = 0
    ∧ win0_4.index t (0 : Fin 3) = (grid0.coords t 0).val ∧ win0_4.index t (1 : Fin 3) = (grid0.coords t 1).val ∧ win0_4.index t (2 : Fin 3) = 0
    ∧ win0_5.index t (0 : Fin 3) = (grid0.coords t 0).val ∧ win0_5.index t (1 : Fin 3) = (grid0.coords t 1).val ∧ win0_5.index t (2 : Fin 3) = 0 :=
  (by decide +kernel : ∀ t : Fin grid0.N, _)

/-- Every (batch, tile) pair is some point's. -/
theorem everyTile : ∀ (b : Fin 16) (q : Fin 4), ∃ t : Fin cfg0.N,
    win0_4.index t = ![b.val, q.val, 0] ∧ win0_5.index t = ![b.val, q.val, 0] :=
  (by decide +kernel : ∀ (b : Fin 16) (q : Fin 4), ∃ t : Fin grid0.N,
    win0_4.index t = ![b.val, q.val, 0] ∧ win0_5.index t = ![b.val, q.val, 0])

/-- The batch a point works on. -/
def batchOf (t : Fin cfg0.N) : Fin 16 := ⟨(grid0.coords t 0).val, (grid0.coords t 0).isLt⟩
/-- The query tile a point works on. -/
def tileOf (t : Fin cfg0.N) : Fin 4 := ⟨(grid0.coords t 1).val, (grid0.coords t 1).isLt⟩
/-- The query position of row `r` of a point's tile. -/
def rowOf (t : Fin cfg0.N) (r : Fin 512) : Fin 2048 :=
  ⟨(tileOf t).val * 512 + r.val, by have := (tileOf t).isLt; have := r.isLt; omega⟩

/-- The mask array the region finds: the argument's bits, each widened to a 32-bit word. -/
theorem maskWords (c : Dev nD) (x : S16x2048x2048.Idx) :
    (V m c main_call0_v0 : S16x2048x2048.Idx → BitVec 32) x = ((m ((c : Thread nD τ).loc main_arg3)) x).setWidth 32 := by
  have e : (V m c main_call0_v0 : S16x2048x2048.Idx → BitVec 32) = extui 32 (m ((c : Thread nD τ).loc main_arg3)) natLt_1_32 := by
    dsimp only [Gen.V, Gen.hostOps0]; after_results; rfl
  rw [e]; rfl

/-- The query block at a point: rows `rowOf t r` of batch `batchOf t`. -/
theorem queries_read (c : Dev nD) (t : Fin cfg0.N) (r : Fin 512) (d : Fin 64) :
    iblk m c 0 t (ix3 (0 : Fin 1) r d) = V m c main_arg0 (ix3 (batchOf t) (rowOf t r) d) := by
  obtain ⟨e0, e1, e2, -⟩ := blockIndices t
  show V m c main_arg0 (((cfg0.win 0).blk t).view.emb (ix3 (0 : Fin 1) r d)) = _
  refine congrArg (V m c main_arg0) (funext fun a => Fin.ext ?_)
  match a with
  | ⟨0, _⟩ => show win0_0.index t (0 : Fin 3) * 1 + 1 * 0 = (grid0.coords t 0).val; omega
  | ⟨1, _⟩ => show win0_0.index t (1 : Fin 3) * 512 + 1 * r.val = (grid0.coords t 1).val * 512 + r.val; omega
  | ⟨2, _⟩ => show win0_0.index t (2 : Fin 3) * 64 + 1 * d.val = d.val; omega

/-- The key block at a point: all of batch `batchOf t`. -/
theorem keys_read (c : Dev nD) (t : Fin cfg0.N) (j : Fin 2048) (d : Fin 64) :
    iblk m c 1 t (ix3 (0 : Fin 1) j d) = V m c main_arg1 (ix3 (batchOf t) j d) := by
  obtain ⟨-, -, -, e0, e1, e2, -⟩ := blockIndices t
  show V m c main_arg1 (((cfg0.win 1).blk t).view.emb (ix3 (0 : Fin 1) j d)) = _
  refine congrArg (V m c main_arg1) (funext fun a => Fin.ext ?_)
  match a with
  | ⟨0, _⟩ => show win0_1.index t (0 : Fin 3) * 1 + 1 * 0 = (grid0.coords t 0).val; omega
  | ⟨1, _⟩ => show win0_1.index t (1 : Fin 3) * 2048 + 1 * j.val = j.val; omega
  | ⟨2, _⟩ => show win0_1.index t (2 : Fin 3) * 64 + 1 * d.val = d.val; omega

/-- The value block at a point: all of batch `batchOf t`. -/
theorem values_read (c : Dev nD) (t : Fin cfg0.N) (j : Fin 2048) (d : Fin 64) :
    iblk m c 2 t (ix3 (0 : Fin 1) j d) = V m c main_arg2 (ix3 (batchOf t) j d) := by
  obtain ⟨-, -, -, -, -, -, e0, e1, e2, -⟩ := blockIndices t
  show V m c main_arg2 (((cfg0.win 2).blk t).view.emb (ix3 (0 : Fin 1) j d)) = _
  refine congrArg (V m c main_arg2) (funext fun a => Fin.ext ?_)
  match a with
  | ⟨0, _⟩ => show win0_2.index t (0 : Fin 3) * 1 + 1 * 0 = (grid0.coords t 0).val; omega
  | ⟨1, _⟩ => show win0_2.index t (1 : Fin 3) * 2048 + 1 * j.val = j.val; omega
  | ⟨2, _⟩ => show win0_2.index t (2 : Fin 3) * 64 + 1 * d.val = d.val; omega

/-- The mask block at a point: rows `rowOf t r` of batch `batchOf t`, each bit widened. -/
theorem mask_read (c : Dev nD) (t : Fin cfg0.N) (r : Fin 512) (j : Fin 2048) :
    iblk m c 3 t (ix3 (0 : Fin 1) r j) = ((m ((c : Thread nD τ).loc main_arg3)) (ix3 (batchOf t) (rowOf t r) j)).setWidth 32 := by
  obtain ⟨-, -, -, -, -, -, -, -, -, e0, e1, e2, -⟩ := blockIndices t
  refine Eq.trans ?_ (maskWords m c (ix3 (batchOf t) (rowOf t r) j))
  show V m c main_call0_v0 (((cfg0.win 3).blk t).view.emb (ix3 (0 : Fin 1) r j)) = _
  refine congrArg (V m c main_call0_v0) (funext fun a => Fin.ext ?_)
  match a with
  | ⟨0, _⟩ => show win0_3.index t (0 : Fin 3) * 1 + 1 * 0 = (grid0.coords t 0).val; omega
  | ⟨1, _⟩ => show win0_3.index t (1 : Fin 3) * 512 + 1 * r.val = (grid0.coords t 1).val * 512 + r.val; omega
  | ⟨2, _⟩ => show win0_3.index t (2 : Fin 3) * 2048 + 1 * j.val = j.val; omega

/-! ## The weights (output window 5) -/

/-- What a point writes back to the weights array is its band of the specification's weights. -/
theorem weights_band (c : Dev nD) (t : Fin cfg0.N) :
    (dats m 0 c).flushed 5 t = ((cfg0.win 5).blk t).view.read (Elt Ideal)
      (weights (V m c main_arg0) (V m c main_arg1) (m ((c : Thread nD τ).loc main_arg3))) := by
  obtain ⟨-, -, -, -, -, -, -, -, -, -, -, -, -, -, -, e0, e1, e2⟩ := blockIndices t
  rw [Cert.KernelIdeal.Value.flushed5]
  unfold out0_5
  rw [View.canon_unit_zero zeroOffsets]
  simp only [View.ld_unit_zero (S := S1x512x64) zeroOffsets, View.ld_unit_zero (S := S1x2048x64) zeroOffsets,
    View.ld_unit_zero (S := S1x512x2048) zeroOffsets]
  funext y
  obtain ⟨u, r, j, rfl⟩ : ∃ (u : Fin 1) (r : Fin 512) (j : Fin 2048), y = ix3 u r j := ⟨y 0, y 1, y 2, eq_ix3 y⟩
  obtain rfl : u = 0 := Fin.ext (by omega)
  show k0_pay2 (iblk m c 0 t) (iblk m c 1 t) (iblk m c 3 t) (ix3 (0 : Fin 1) r j)
    = weights (V m c main_arg0) (V m c main_arg1) (m ((c : Thread nD τ).loc main_arg3)) (((cfg0.win 5).blk t).view.emb (ix3 (0 : Fin 1) r j))
  have hemb : ((cfg0.win 5).blk t).view.emb (ix3 (0 : Fin 1) r j) = ix3 (batchOf t) (rowOf t r) j :=
    funext fun a => Fin.ext (by
      match a with
      | ⟨0, _⟩ => show win0_5.index t (0 : Fin 3) * 1 + 1 * 0 = (grid0.coords t 0).val; omega
      | ⟨1, _⟩ => show win0_5.index t (1 : Fin 3) * 512 + 1 * r.val = (grid0.coords t 1).val * 512 + r.val; omega
      | ⟨2, _⟩ => show win0_5.index t (2 : Fin 3) * 2048 + 1 * j.val = j.val; omega)
  rw [hemb, weights_ix3]
  refine (pay2_at (iblk m c 0 t) (iblk m c 1 t) (iblk m c 3 t) (0 : Fin 1) r j).trans ?_
  exact tileWeight_eq (iblk m c 0 t) (iblk m c 1 t) (iblk m c 3 t) (V m c main_arg0) (V m c main_arg1) (m ((c : Thread nD τ).loc main_arg3))
    (batchOf t) (rowOf t) (fun r d => queries_read m c t r d) (fun j d => keys_read m c t j d)
    (fun r j => mask_read m c t r j) r j

/-- An index of the weights array is in a point's block iff each coordinate is in the block's range. -/
theorem mem_weights_block (t : Fin cfg0.N) (i : S16x2048x2048.Idx) :
    i ∈ ((cfg0.win 5).blk t).view.set ↔ ∀ a : Fin 3, win0_5.index t a * S1x512x2048.size a ≤ (i a).val
      ∧ (i a).val < win0_5.index t a * S1x512x2048.size a + S1x512x2048.size a := by
  show i ∈ ((View.whole main_v0_1).slice (win0_5.rect t)).set ↔ _
  rw [View.set_slice_whole, Rect.mem_set_unit]
  exact Iff.rfl

/-- The 64 bands cover the weights array: index (b, i, j) is in the block of the point of batch b and tile i / 512. -/
theorem weights_cover (i : S16x2048x2048.Idx) :
    ∃ t : Fin cfg0.N, (cfg0.win 5).flush t = true ∧ i ∈ ((cfg0.win 5).blk t).view.set := by
  have h0 : (i 0).val < 16 := (i 0).isLt
  have h1 : (i 1).val < 2048 := (i 1).isLt
  have h2 : (i 2).val < 2048 := (i 2).isLt
  obtain ⟨t, -, ht⟩ := everyTile ⟨(i 0).val, h0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_weights_block]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 2048 ≤ (i 2).val ∧ (i 2).val < win0_5.index t (2 : Fin 3) * 2048 + 2048; omega

/-- The weights array after the run is the specification's weights of the arguments. -/
theorem weights_final (c : Dev nD) :
    (dats m 0 c).arrAt 5 cfg0.N = weights (m ((c : Thread nD τ).loc main_arg0)) (m ((c : Thread nD τ).loc main_arg1)) (m ((c : Thread nD τ).loc main_arg3)) := by
  refine ((dats m 0 c).arrAt_eq_of_cover 5 _ (fun t _ => weights_band m c t) weights_cover).trans ?_
  rw [V_main_arg0, V_main_arg1]

/-! ## The mixed values (output window 4) -/

/-- What a point writes back to the result array is its band of the specification's mixed values. -/
theorem mixed_band (c : Dev nD) (t : Fin cfg0.N) :
    (dats m 0 c).flushed 4 t = ((cfg0.win 4).blk t).view.read (Elt Ideal)
      (mixed (V m c main_arg0) (V m c main_arg1) (V m c main_arg2) (m ((c : Thread nD τ).loc main_arg3))) := by
  obtain ⟨-, -, -, -, -, -, -, -, -, -, -, -, e0, e1, e2, -⟩ := blockIndices t
  rw [Cert.KernelIdeal.Value.flushed4]
  unfold out0_4
  rw [View.canon_unit_zero zeroOffsets]
  simp only [View.ld_unit_zero (S := S1x512x64) zeroOffsets, View.ld_unit_zero (S := S1x2048x64) zeroOffsets,
    View.ld_unit_zero (S := S1x512x2048) zeroOffsets]
  funext y
  obtain ⟨u, r, d, rfl⟩ : ∃ (u : Fin 1) (r : Fin 512) (d : Fin 64), y = ix3 u r d := ⟨y 0, y 1, y 2, eq_ix3 y⟩
  obtain rfl : u = 0 := Fin.ext (by omega)
  show k0_pay3 (iblk m c 0 t) (iblk m c 1 t) (iblk m c 2 t) (iblk m c 3 t) (ix3 (0 : Fin 1) r d)
    = mixed (V m c main_arg0) (V m c main_arg1) (V m c main_arg2) (m ((c : Thread nD τ).loc main_arg3)) (((cfg0.win 4).blk t).view.emb (ix3 (0 : Fin 1) r d))
  have hemb : ((cfg0.win 4).blk t).view.emb (ix3 (0 : Fin 1) r d) = ix3 (batchOf t) (rowOf t r) d :=
    funext fun a => Fin.ext (by
      match a with
      | ⟨0, _⟩ => show win0_4.index t (0 : Fin 3) * 1 + 1 * 0 = (grid0.coords t 0).val; omega
      | ⟨1, _⟩ => show win0_4.index t (1 : Fin 3) * 512 + 1 * r.val = (grid0.coords t 1).val * 512 + r.val; omega
      | ⟨2, _⟩ => show win0_4.index t (2 : Fin 3) * 64 + 1 * d.val = d.val; omega)
  rw [hemb, mixed_ix3]
  refine (pay3_at (iblk m c 0 t) (iblk m c 1 t) (iblk m c 2 t) (iblk m c 3 t) (0 : Fin 1) r d).trans ?_
  exact tileMixed_eq (iblk m c 0 t) (iblk m c 1 t) (iblk m c 2 t) (iblk m c 3 t) (V m c main_arg0) (V m c main_arg1)
    (V m c main_arg2) (m ((c : Thread nD τ).loc main_arg3)) (batchOf t) (rowOf t) (fun r d => queries_read m c t r d) (fun j d => keys_read m c t j d)
    (fun j d => values_read m c t j d) (fun r j => mask_read m c t r j) r d

/-- An index of the result array is in a point's block iff each coordinate is in the block's range. -/
theorem mem_mixed_block (t : Fin cfg0.N) (i : S16x2048x64.Idx) :
    i ∈ ((cfg0.win 4).blk t).view.set ↔ ∀ a : Fin 3, win0_4.index t a * S1x512x64.size a ≤ (i a).val
      ∧ (i a).val < win0_4.index t a * S1x512x64.size a + S1x512x64.size a := by
  show i ∈ ((View.whole main_v0_0).slice (win0_4.rect t)).set ↔ _
  rw [View.set_slice_whole, Rect.mem_set_unit]
  exact Iff.rfl

/-- The 64 bands cover the result array. -/
theorem mixed_cover (i : S16x2048x64.Idx) :
    ∃ t : Fin cfg0.N, (cfg0.win 4).flush t = true ∧ i ∈ ((cfg0.win 4).blk t).view.set := by
  have h0 : (i 0).val < 16 := (i 0).isLt
  have h1 : (i 1).val < 2048 := (i 1).isLt
  have h2 : (i 2).val < 64 := (i 2).isLt
  obtain ⟨t, ht, -⟩ := everyTile ⟨(i 0).val, h0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_mixed_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 64 ≤ (i 2).val ∧ (i 2).val < win0_4.index t (2 : Fin 3) * 64 + 64; omega

/-- The result array after the run is the specification's mixed values of the arguments. -/
theorem mixed_final (c : Dev nD) :
    (dats m 0 c).arrAt 4 cfg0.N = mixed (m ((c : Thread nD τ).loc main_arg0)) (m ((c : Thread nD τ).loc main_arg1)) (m ((c : Thread nD τ).loc main_arg2)) (m ((c : Thread nD τ).loc main_arg3)) := by
  refine ((dats m 0 c).arrAt_eq_of_cover 4 _ (fun t _ => mixed_band m c t) mixed_cover).trans ?_
  rw [V_main_arg0, V_main_arg1, V_main_arg2]

/-! ## The run -/

/-- Every weakly fair execution of the idealized kernel terminates with its two results at the specification of the
    arguments, the arguments unchanged. -/
theorem run : θ_run defs (onTc (τ := τ) (main (F := Ideal))) ⟨m, fun _ => 0, ρ⟩ fun r => ∀ c : Dev nD,
      r.2.mem ((c : Thread nD τ).loc main_v0_0) = mixed (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = weights (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (mixed_final m c), (h c).2.1.trans (weights_final m c), (h c).2.2⟩)
    (Cert.KernelIdeal.Value.run_blocks m ρ)

end Cert.SumNorm.Arrays

end
-- ==== Proof.RefReading.lean ====
/-
  The reference program computes the specification.

  Its operations are read one at a time at an index: the batched product of queries with keys contracted along the
  feature axis is the score; the selection by the mask against a zero constant is the kept score; the sum over the key
  axis, started from the zero word, is the query's total (0 + s = s); the clamp is the maximum of the floor constant and
  the total, the floor FIRST, so the maximum's arguments are swapped against the specification's; the quotient is the
  weight; and the batched product with the values contracted along the key axis mixes them.
-/
import proofs.«153842_j24172075941944_2_alg».proof.Proof.Gen.ReferenceIdeal.Read
import proofs.«153842_j24172075941944_2_alg».proof.Proof.SumNorm

noncomputable section

namespace Cert.SumNorm.Ref

open Cert.ReferenceIdeal Cert.ReferenceIdeal.Read Idealize.ShloMosaic Idealize.ShloMosaic.ValueIdx Cert.SumNorm
open scoped BigOperators

variable (x0 x1 x2 : (⟨S16x2048x64, .f32⟩ : BufTy).Contents (Elt Ideal))
  (x3 : (⟨S16x2048x2048, .i1⟩ : BufTy).Contents (Elt Ideal))

/-- The selected scores at (b, i, j) are the kept score. -/
theorem kept_at (b : Fin 16) (i j : Fin 2048) :
    val_main_v1 (F := Ideal) x0 x1 x3 (ix3 b i j) = kept x0 x1 x3 b i j := by
  rw [val_main_v1_apply, val_main_call0_v0_apply, val_main_cst_apply, val_main_v0_apply]
  have el : ∀ d : Fin 64, lidx_main_v0 (ix3 b i j) d = ix3 b i d := fun d => funext fun a => by
    match a with | ⟨0, _⟩ => rfl | ⟨1, _⟩ => rfl | ⟨2, _⟩ => rfl
  have er : ∀ d : Fin 64, ridx_main_v0 (ix3 b i j) d = ix3 b j d := fun d => funext fun a => by
    match a with | ⟨0, _⟩ => rfl | ⟨1, _⟩ => rfl | ⟨2, _⟩ => rfl
  simp only [el, er]
  rfl

/-- The sum over the key axis at (b, i) is the query's total: the sum starts from the zero word. -/
theorem total_at (b : Fin 16) (i : Fin 2048) :
    val_main_v2 (F := Ideal) x0 x1 x3 (ix2 b i) = total x0 x1 x3 b i := by
  rw [val_main_v2_apply, val_main_cst_0_apply]
  show Ideal.ofBits .f32 0x00000000#32 + _ = _
  rw [Ideal.ofBits_zero_f32, zero_add]
  unfold total
  refine Finset.sum_congr rfl fun j _ => ?_
  have e : idx_main_v2 (ix2 b i) j = ix3 b i j := funext fun a => by
    match a with | ⟨0, _⟩ => rfl | ⟨1, _⟩ => rfl | ⟨2, _⟩ => rfl
  rw [e, kept_at]

/-- The clamped total at (b, i, ·): the maximum is commutative. -/
theorem clamped_at (b : Fin 16) (i : Fin 2048) (u : Fin 1) :
    val_main_v4 (F := Ideal) x0 x1 x3 (ix3 b i u) = max (total x0 x1 x3 b i) floorWord := by
  rw [val_main_v4_apply, val_main_call1_v1_apply, val_main_call1_v0_apply, val_main_cst_1_apply, val_main_v3_apply]
  have e : idx_main_v3 (ix3 b i u) = ix2 b i := funext fun a => by
    match a with | ⟨0, _⟩ => rfl | ⟨1, _⟩ => rfl
  rw [e, total_at]
  show max (Ideal.ofBits .f32 0x283424DC#32) _ = _
  exact max_comm _ _

/-- The reference's second result is the specification's weights. -/
theorem weights_eq : val_main_v6 (F := Ideal) x0 x1 x3 = weights x0 x1 x3 := by
  funext x
  obtain ⟨b, i, j, rfl⟩ : ∃ (b : Fin 16) (i j : Fin 2048), x = ix3 b i j := ⟨x 0, x 1, x 2, eq_ix3 x⟩
  rw [weights_ix3, val_main_v6_apply, val_main_v5_apply]
  have e : idx_main_v5 (ix3 b i j) = ix3 b i (0 : Fin 1) := funext fun a => by
    match a with | ⟨0, _⟩ => rfl | ⟨1, _⟩ => rfl | ⟨2, _⟩ => rfl
  rw [e, clamped_at, kept_at]
  rfl

/-- The reference's first result is the specification's mixed values. -/
theorem mixed_eq : val_main_v7 (F := Ideal) x0 x1 x2 x3 = mixed x0 x1 x2 x3 := by
  funext x
  obtain ⟨b, i, d, rfl⟩ : ∃ (b : Fin 16) (i : Fin 2048) (d : Fin 64), x = ix3 b i d := ⟨x 0, x 1, x 2, eq_ix3 x⟩
  rw [mixed_ix3, val_main_v7_apply, weights_eq]
  unfold mixedAt
  refine Finset.sum_congr rfl fun j _ => ?_
  have el : lidx_main_v7 (ix3 b i d) j = ix3 b i j := funext fun a => by
    match a with | ⟨0, _⟩ => rfl | ⟨1, _⟩ => rfl | ⟨2, _⟩ => rfl
  have er : ridx_main_v7 (ix3 b i d) j = ix3 b j d := funext fun a => by
    match a with | ⟨0, _⟩ => rfl | ⟨1, _⟩ => rfl | ⟨2, _⟩ => rfl
  rw [el, er, weights_ix3]

end Cert.SumNorm.Ref

end
-- ==== Proof.lean ====
/-
  Sum-normalised dot-product attention: a tiled kernel against its array-level reference, on the extended reals.

  Both programs take queries, keys and values of shape [16, 2048, 64] and a Boolean mask of shape [16, 2048, 2048] and
  return the mixed values [16, 2048, 64] and the weights [16, 2048, 2048], where (Proof/SumNorm.lean)
    kept b i j    = 0 where the mask removes the pair, ∑ d, q(b, i, d) · k(b, j, d) elsewhere
    weights b i j = kept b i j / max (∑ j', kept b i j') floor,      floor the single-precision word nearest to 1e-14
    mixed b i d   = ∑ j, weights b i j · v(b, j, d).
  The kernel runs on a 16 × 4 grid, one batch and 512 queries per point: its body forms the scores of the tile against
  all keys of the batch by one product with the transposed keys, replaces the removed pairs by zero, sums each row,
  clamps, divides, stores the tile of weights, and multiplies it with the batch's values after a rounding to half precision
  that is the identity on the extended reals.  The reference does the same with two batched products over whole arrays.
  Read at an index, both are the expressions above: the kernel's tile is a band of them (Proof/ScoreTile.lean,
  Proof/TileMeaning.lean), the 64 bands cover both results (Proof/TilesToArrays.lean), and the reference's operations
  compose to them (Proof/RefReading.lean).  The only laws used are that a sum does not depend on how its index set is
  presented, that 0 + s = s, and that the maximum is commutative (the reference clamps with the floor as the first
  argument, the kernel with the floor as the second); none needs the entries to be finite, so the precondition is not
  opened.  The idealization rewrote nothing, so the kernel's idealized program is its own text read on the extended reals.
-/
import proofs.«153842_j24172075941944_2_alg».proof.Defs
import proofs.«153842_j24172075941944_2_alg».proof.Proof.Gen.Kernel
import proofs.«153842_j24172075941944_2_alg».proof.Proof.Gen.Kernel.Skeleton
import proofs.«153842_j24172075941944_2_alg».proof.Proof.Gen.Kernel.Launch
import proofs.«153842_j24172075941944_2_alg».proof.Proof.Gen.Kernel.Points
import proofs.«153842_j24172075941944_2_alg».proof.Proof.Gen.Kernel.Frame
import proofs.«153842_j24172075941944_2_alg».proof.Proof.Gen.KernelIdeal
import proofs.«153842_j24172075941944_2_alg».proof.Proof.Gen.KernelIdeal.Skeleton
import proofs.«153842_j24172075941944_2_alg».proof.Proof.Gen.KernelIdeal.Launch
import proofs.«153842_j24172075941944_2_alg».proof.Proof.Gen.KernelIdeal.Points
import proofs.«153842_j24172075941944_2_alg».proof.Proof.Gen.KernelIdeal.Frame
import proofs.«153842_j24172075941944_2_alg».proof.Proof.Gen.ReferenceIdeal
import proofs.«153842_j24172075941944_2_alg».proof.Proof.Gen.KernelIdeal.Value
import proofs.«153842_j24172075941944_2_alg».proof.Proof.Gen.ReferenceIdeal.Run
import proofs.«153842_j24172075941944_2_alg».proof.Proof.Gen.ReferenceIdeal.Read
import proofs.«153842_j24172075941944_2_alg».proof.Proof.Gen.Pre_finite_inputs
import proofs.«153842_j24172075941944_2_alg».proof.Proof.TilesToArrays
import proofs.«153842_j24172075941944_2_alg».proof.Proof.RefReading
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the two results dropped. -/
theorem frame_reference : Cert.frame_ReferenceIdeal := fun m ρ _ =>
  (θ_run Cert.ReferenceIdeal.defs _ _).mono (fun _ h c => (h c).2.2)
    (Cert.ReferenceIdeal.Value.run (F := Ideal) m ρ)

/-- The idealization rewrote no operation: nothing to preserve. -/
theorem preserves : Cert.preserves_Kernel_KernelIdeal := trivial

/-- From memories that agree on the arguments, the kernel ends with its results at the specification's `mixed` and
    `weights` of the arguments (the tiles' bands cover the arrays), and the reference's two results are the same two
    functions of the same arguments (its operations read at an index). -/
theorem algebraic : Cert.algebraic_KernelIdeal_ReferenceIdeal := by
  intro m ρ m' ρ' _ hagree
  refine ⟨_, _, Cert.SumNorm.Arrays.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v7_eq, Cert.SumNorm.Ref.mixed_eq,
      (hagree c).1, (hagree c).2.1, (hagree c).2.2.1, (hagree c).2.2.2]
  · rw [(h c).2.1, Cert.ReferenceIdeal.Read.val_main_v6_eq, Cert.SumNorm.Ref.weights_eq,
      (hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
